-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S100000x128 : Shape := ⟨2, ![100000, 128]⟩
abbrev S100000 : Shape := ⟨1, ![100000]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S1024x128 .f32) (main_arg1 : FVec F S100000x128 .f32) (main_arg2 : FVec F S100000 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S1024x128 : Shape := ⟨2, ![1024, 128]⟩
abbrev S100000x128 : Shape := ⟨2, ![100000, 128]⟩
abbrev S100000 : Shape := ⟨1, ![100000]⟩
abbrev S1x100000 : Shape := ⟨2, ![1, 100000]⟩
abbrev S1024x100000 : Shape := ⟨2, ![1024, 100000]⟩
abbrev S2048x128 : Shape := ⟨2, ![2048, 128]⟩
abbrev S1x2048 : Shape := ⟨2, ![1, 2048]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S100000, .f32⟩
  | .hbm, ⟨3, _⟩ => ⟨S1x100000, .f32⟩
  | .hbm, ⟨4, _⟩ => ⟨S1024x100000, .f32⟩
  | .local _ .vmem, ⟨0, _⟩ => ⟨S1024x128, .f32⟩
  | .local _ .vmem, ⟨1, _⟩ => ⟨S2048x128, .f32⟩
  | .local _ .vmem, ⟨2, _⟩ => ⟨S2048x128, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S100000_S1x100000 : S100000.ShapeCasts S1x100000
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x128.size a < S100000x128.size a
  hwx0_1 : ∀ i : grid0.Coords, EltTy.bits .f32 = 32 ∨ (Rect.unit (s := S100000x128) (fun a => cc0_transform_1 i a * S2048x128.size a) (fun a => (Pipeline.Clip.of (cc0_transform_1 i a) (S2048x128.size a) (S100000x128.size a)).extent (S2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2048x128) (fun _ => 0) (fun a => (Pipeline.Clip.of (cc0_transform_1 i a) (S2048x128.size a) (S100000x128.size a)).extent (S2048x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x100000.size a
  hwx0_2 : ∀ i : grid0.Coords, EltTy.bits .f32 = 32 ∨ (Rect.unit (s := S1x100000) (fun a => cc0_transform_2 i a * S1x2048.size a) (fun a => (Pipeline.Clip.of (cc0_transform_2 i a) (S1x2048.size a) (S1x100000.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x100000.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x2048.size a < S1024x100000.size a
  hwx0_3 : ∀ i : grid0.Coords, EltTy.bits .f32 = 32 ∨ (Rect.unit (s := S1024x100000) (fun a => cc0_transform_3 i a * S1024x2048.size a) (fun a => (Pipeline.Clip.of (cc0_transform_3 i a) (S1024x2048.size a) (S1024x100000.size a)).extent (S1024x2048.size a)) fun a => Pipeline.Clip.inb (Pipeline.Clip.ok_of (hstart0_3 i a))).WholeWords (EltTy.packing .f32)
  hwxs0_3 : ∀ i : grid0.Coords, EltTy.bits .f32 = 32 ∨ (Rect.unit (s := S1024x2048) (fun _ => 0) (fun a => (Pipeline.Clip.of (cc0_transform_3 i a) (S1024x2048.size a) (S1024x100000.size a)).extent (S1024x2048.size a)) fun a => (Nat.zero_add _).trans_le (Pipeline.Clip.extent_le (Pipeline.Clip.ok_of (hstart0_3 i a)))).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1) S1024x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x128 : Shape := ⟨2, ![1024, 128]⟩
abbrev S100000x128 : Shape := ⟨2, ![100000, 128]⟩
abbrev S100000 : Shape := ⟨1, ![100000]⟩
abbrev S128x100000 : Shape := ⟨2, ![128, 100000]⟩
abbrev S1024x100000 : Shape := ⟨2, ![1024, 100000]⟩
abbrev S1x100000 : Shape := ⟨2, ![1, 100000]⟩

abbrev nBuf : Space → Nat
  | .hbm => 8
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S100000, .f32⟩
  | .hbm, ⟨3, _⟩ => ⟨S128x100000, .f32⟩
  | .hbm, ⟨4, _⟩ => ⟨S1024x100000, .f32⟩
  | .hbm, ⟨5, _⟩ => ⟨S1x100000, .f32⟩
  | .hbm, ⟨6, _⟩ => ⟨S1024x100000, .f32⟩
  | .hbm, ⟨7, _⟩ => ⟨S1024x100000, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S100000x128_S128x100000_1_0 : S100000x128.Transposes [1, 0] S128x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  dot_S1024x128_S128x100000_S1024x100000_1_0_0_1_n_n_wf : DotDims.WF S1024x128 S128x100000 S1024x100000 [1] [0] [0] [1] [] []

variable [Facts₀]

def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf

class Facts : Prop extends Facts₀ where

variable [Facts]
-- ==== Proof.BodyBits.lean ====
/-
  The kernel body's triple, at any float instance.  The body reads its three input staging buffers whole — the
  activations x (1024 × 128), a tile of 2048 weight rows (2048 × 128) and the matching 2048 bias entries (1 × 2048) —,
  forms the tile of the product x · Wᵀ plus the bias row, and overwrites the whole output staging buffer
  (1024 × 2048) with it.  Whatever the four buffers hold beforehand, the inputs are left as found and the output
  buffer ends at the body's one payload of the three inputs' contents.
-/
import proofs.«113134_g73632919322862_cont_9to1c4b_96_2_alg».proof.Proof.Gen.Kernel.Frame
import proofs.«113134_g73632919322862_cont_9to1c4b_96_2_alg».proof.Proof.Gen.Kernel.Skeleton
import Idealize.ShloMosaic.Lib.Pipeline.Frame
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pair of zero offsets, as the constant function. -/
theorem zero_offsets : (![0, 0] : Fin 2 → Nat) = fun _ => 0 :=
  funext fun a => match a with
    | ⟨0, _⟩ => rfl
    | ⟨1, _⟩ => rfl

set_option maxHeartbeats 2000000 in
/-- The body on whole staging memrefs holding `X0`, `X1`, `X2` and anything: the three inputs are left as found
    and the output buffer ends at the payload of the three. -/
theorem sound_kernel (c : Dev nD) (E : Set ℕ) (i : grid0.Coords)
    (arg1 : Memref sig .tc .vmem S1024x128 .f32) (harg1 : arg1.IsWhole)
    (arg2 : Memref sig .tc .vmem S2048x128 .f32) (harg2 : arg2.IsWhole)
    (arg3 : Memref sig .tc .vmem S1x2048 .f32) (harg3 : arg3.IsWhole)
    (arg4 : Memref sig .tc .vmem S1024x2048 .f32) (harg4 : arg4.IsWhole)
    (X0 : Vec F S1024x128 .f32) (X1 : Vec F S2048x128 .f32) (X2 : Vec F S1x2048 .f32) (K : PUnit → sProp 𝕄) :
    iprop(owns (c : Thread nD τ) arg1 fullShare X0 ∗ owns (c : Thread nD τ) arg2 fullShare X1
        ∗ owns (c : Thread nD τ) arg3 fullShare X2 ∗ (∃ d, owns (c : Thread nD τ) arg4 fullShare d)
        ∗ (iprop(owns (c : Thread nD τ) arg1 fullShare X0 ∗ owns (c : Thread nD τ) arg2 fullShare X1
            ∗ owns (c : Thread nD τ) arg3 fullShare X2 ∗ owns (c : Thread nD τ) arg4 fullShare (k0_pay1 X0 X1 X2)) -∗ K ⟨⟩))
      ⊢ wp frame (wpE (defs₀ (F := F)) Variants.none c none) E (cc0__fc_kernel i arg1 harg1 arg2 harg2 arg3 harg3 arg4 harg4) K := by
  simp only [cc0__fc_kernel_eq_skeleton]; unfold cc0__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _,
      View.mem_set_unit_zero zero_offsets Gen.inb_S1024x2048_S1024x2048_0_0 y⟩),
    View.canon_unit_zero zero_offsets]
  simp only [View.readAt_eq_ld, View.ld_unit_zero (S := S1024x128) zero_offsets,
    View.ld_unit_zero (S := S2048x128) zero_offsets, View.ld_unit_zero (S := S1x2048) zero_offsets]

end Cert.Kernel.Body

end
-- ==== Proof.FrameBits.lean ====
/-
  The frame of the program: it runs to the end without a fault and leaves x, W and b as it found them.
  Nothing is said here of what the body computes.  The proof data are relational: whatever a staging buffer holds
  when the body is handed it, the body may leave anything there.  That suffices because the body reads each of its
  buffers without any condition on the contents and writes only its own output buffer; the arrays x and W are only
  ever fetched from, and b is not staged at all (its reshaped copy is), so all three end as launched.
-/
import proofs.«113134_g73632919322862_cont_9to1c4b_96_2_alg».proof.Proof.BodyBits

set_option maxRecDepth 16384

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data of the one pipeline on core `c`: the arrays as the region finds them; of what the
    body leaves in a staging buffer, nothing; the scoped rest and the generator register untouched; nothing owed;
    full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at any point, on staging buffers holding anything: it runs, and hands the four buffers back. -/
theorem sound_body (c : Dev nD) (t : Fin cfg0.N)
    (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X)
            ∗ (∃ X, ⌜(rdat m c).after 3 t (Y 3) X⌝ ∗ owns (c : Thread nD τ) (st0_3 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2, H3⟩
  iapply (Body.sound_kernel c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (k0_pay1 (Y 0) (Y 1) (Y 2)); isplitr; · ipureintro; trivial
    iexact H3

/-- The library's relational body obligation, at every point. -/
theorem body_obligation (c : Dev nD) : (rdat (F := F) m c).BodyObligation (defs₀ (F := F)) Variants.none () Set.univ :=
  fun t Y _ => by
    rw [bigSep_W0, bigSep_W0]
    exact sound_body m c t Y

set_option backward.isDefEq.respectTransparency.types false in
/-- Every weakly fair execution of @main terminates without a fault; each staged input array ends as the region found
    it, and so does every unscoped buffer no window stages. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The frame claim's post: x and W are input windows' arrays, never written; b is staged by no window. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    have h0 := (h c).1 0
    have h1 := (h c).1 1
    rw [(rdat m c).ArrAt_in 0 rfl] at h0
    rw [(rdat m c).ArrAt_in 1 rfl] at h1
    exact ⟨h0.trans (V_main_arg0 m c), h1.trans (V_main_arg1 m c),
      ((h c).2 main_arg2 (Pipeline.mem_restRefs_of main_arg2 (by decide) (by decide))).trans (V_main_arg2 m c)⟩)
    (run_main m ρ)

end Cert.Kernel.FrameRun

end
-- ==== Proof.BodyIdeal.lean ====
/-
  The kernel body's triple, at any float instance.  The body reads its three input staging buffers whole — the
  activations x (1024 × 128), a tile of 2048 weight rows (2048 × 128) and the matching 2048 bias entries (1 × 2048) —,
  forms the tile of the product x · Wᵀ plus the bias row, and overwrites the whole output staging buffer
  (1024 × 2048) with it.  Whatever the four buffers hold beforehand, the inputs are left as found and the output
  buffer ends at the body's one payload of the three inputs' contents.
-/
import proofs.«113134_g73632919322862_cont_9to1c4b_96_2_alg».proof.Proof.Gen.KernelIdeal.Frame
import proofs.«113134_g73632919322862_cont_9to1c4b_96_2_alg».proof.Proof.Gen.KernelIdeal.Skeleton
import Idealize.ShloMosaic.Lib.Pipeline.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pair of zero offsets, as the constant function. -/
theorem zero_offsets : (![0, 0] : Fin 2 → Nat) = fun _ => 0 :=
  funext fun a => match a with
    | ⟨0, _⟩ => rfl
    | ⟨1, _⟩ => rfl

set_option maxHeartbeats 2000000 in
/-- The body on whole staging memrefs holding `X0`, `X1`, `X2` and anything: the three inputs are left as found
    and the output buffer ends at the payload of the three. -/
theorem sound_kernel (c : Dev nD) (E : Set ℕ) (i : grid0.Coords)
    (arg1 : Memref sig .tc .vmem S1024x128 .f32) (harg1 : arg1.IsWhole)
    (arg2 : Memref sig .tc .vmem S2048x128 .f32) (harg2 : arg2.IsWhole)
    (arg3 : Memref sig .tc .vmem S1x2048 .f32) (harg3 : arg3.IsWhole)
    (arg4 : Memref sig .tc .vmem S1024x2048 .f32) (harg4 : arg4.IsWhole)
    (X0 : Vec F S1024x128 .f32) (X1 : Vec F S2048x128 .f32) (X2 : Vec F S1x2048 .f32) (K : PUnit → sProp 𝕄) :
    iprop(owns (c : Thread nD τ) arg1 fullShare X0 ∗ owns (c : Thread nD τ) arg2 fullShare X1
        ∗ owns (c : Thread nD τ) arg3 fullShare X2 ∗ (∃ d, owns (c : Thread nD τ) arg4 fullShare d)
        ∗ (iprop(owns (c : Thread nD τ) arg1 fullShare X0 ∗ owns (c : Thread nD τ) arg2 fullShare X1
            ∗ owns (c : Thread nD τ) arg3 fullShare X2 ∗ owns (c : Thread nD τ) arg4 fullShare (k0_pay1 X0 X1 X2)) -∗ K ⟨⟩))
      ⊢ wp frame (wpE (defs₀ (F := F)) Variants.none c none) E (cc0__fc_kernel i arg1 harg1 arg2 harg2 arg3 harg3 arg4 harg4) K := by
  simp only [cc0__fc_kernel_eq_skeleton]; unfold cc0__fc_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _,
      View.mem_set_unit_zero zero_offsets Gen.inb_S1024x2048_S1024x2048_0_0 y⟩),
    View.canon_unit_zero zero_offsets]
  simp only [View.readAt_eq_ld, View.ld_unit_zero (S := S1024x128) zero_offsets,
    View.ld_unit_zero (S := S2048x128) zero_offsets, View.ld_unit_zero (S := S1x2048) zero_offsets]

end Cert.KernelIdeal.Body

end
-- ==== Proof.PayloadIdeal.lean ====
/-
  The body's payload read at one element, over the extended reals.  With the changes of float format the identity
  and the matrix product into a zero accumulator a plain sum, element (r, q) of the output tile is
      Σ_k X0[r, k] · X1[q, k]  +  X2[0, q]:
  row r of the activations against row q of the weight tile, plus entry q of the bias tile.  It reads row q of the
  weight tile and entry q of the bias tile and nothing else of them.
-/
import proofs.«113134_g73632919322862_cont_9to1c4b_96_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen
open Idealize.ShloMosaic Idealize.ShloMosaic.ValueIdx

/-- The left operand's index of the product at output (r, q) and contraction position k: (r, k). -/
theorem lhs_eq (r : Fin 1024) (q : Fin 2048) (k : Fin 128) :
    dot_S1024x128_S2048x128_S1024x2048_1_1_0_0_n_n.lhsIdx (ix2 r q) ((contrEquiv1 dot_S1024x128_S2048x128_S1024x2048_1_1_0_0_n_n 128 rfl rfl).symm k) = ix2 r k := by
  have hk := contrEquiv1_symm_val dot_S1024x128_S2048x128_S1024x2048_1_1_0_0_n_n 128 rfl rfl k
  funext a; apply Fin.ext
  match a with
  | ⟨0, _⟩ =>
    show (dot_S1024x128_S2048x128_S1024x2048_1_1_0_0_n_n.lhsIdx (ix2 r q) _ 0).val = r.val
    unfold DotDims.lhsIdx
    rw [dif_neg (show ¬(0 : Fin S1024x128.rank) ∈ dot_S1024x128_S2048x128_S1024x2048_1_1_0_0_n_n.lhsBatch by decide),
      dif_pos (show (0 : Fin S1024x128.rank) ∈ dot_S1024x128_S2048x128_S1024x2048_1_1_0_0_n_n.lhsNonContracting by decide)]
    rfl
  | ⟨1, _⟩ => exact (dot_S1024x128_S2048x128_S1024x2048_1_1_0_0_n_n.lhsIdx_val_of_single rfl (ix2 r q) _).trans hk

/-- The right operand's index there: (q, k) — the weight tile's row is the output's column. -/
theorem rhs_eq (r : Fin 1024) (q : Fin 2048) (k : Fin 128) :
    dot_S1024x128_S2048x128_S1024x2048_1_1_0_0_n_n.rhsIdx (ix2 r q) ((contrEquiv1 dot_S1024x128_S2048x128_S1024x2048_1_1_0_0_n_n 128 rfl rfl).symm k) = ix2 q k := by
  have hk := contrEquiv1_symm_val dot_S1024x128_S2048x128_S1024x2048_1_1_0_0_n_n 128 rfl rfl k
  funext a; apply Fin.ext
  match a with
  | ⟨0, _⟩ =>
    show (dot_S1024x128_S2048x128_S1024x2048_1_1_0_0_n_n.rhsIdx (ix2 r q) _ 0).val = q.val
    unfold DotDims.rhsIdx
    rw [dif_neg (show ¬(0 : Fin S2048x128.rank) ∈ dot_S1024x128_S2048x128_S1024x2048_1_1_0_0_n_n.rhsBatch by decide),
      dif_pos (show (0 : Fin S2048x128.rank) ∈ dot_S1024x128_S2048x128_S1024x2048_1_1_0_0_n_n.rhsNonContracting by decide)]
    rfl
  | ⟨1, _⟩ => exact (dot_S1024x128_S2048x128_S1024x2048_1_1_0_0_n_n.rhsIdx_val_of_single rfl (ix2 r q) _).trans hk

/-- The product tile at (r, q): the sum over k of X0[r, k] · X1[q, k]. -/
theorem matmul_at (A : FVec Ideal S1024x128 .bf16) (B : FVec Ideal S2048x128 .bf16) (r : Fin 1024) (q : Fin 2048) :
    matmul dot_S1024x128_S2048x128_S1024x2048_1_1_0_0_n_n none A B (constant S1024x2048 .f32 0x00000000#32) (ix2 r q)
      = ∑ k : Fin 128, A (ix2 r k) * B (ix2 q k) := by
  refine (Ideal.matmul_constant_zero_apply dot_S1024x128_S2048x128_S1024x2048_1_1_0_0_n_n none A B (ix2 r q)).trans ?_
  rw [← Equiv.sum_comp (contrEquiv1 dot_S1024x128_S2048x128_S1024x2048_1_1_0_0_n_n 128 rfl rfl).symm]
  refine Finset.sum_congr rfl fun k _ => ?_
  rw [lhs_eq r q k, rhs_eq r q k]

/-- The bias row broadcast down the tile's rows, at (r, q): entry (0, q). -/
theorem bias_at (X2 : Vec Ideal S1x2048 .f32) (r : Fin 1024) (q : Fin 2048) :
    broadcastTo S1024x2048 (shapeCast S1x2048 X2 Facts₀.shapeCasts_S1x2048_S1x2048) Facts₀.broadcasts_S1x2048_S1024x2048 (ix2 r q)
      = X2 (ix2 (0 : Fin 1) q) := by
  rw [shapeCast_self]
  exact broadcastTo_apply X2 Facts₀.broadcasts_S1x2048_S1024x2048 (ix2 r q) (ix2 (0 : Fin 1) q) (fun a => match a with
    | ⟨0, _⟩ => by show (0 : Nat) = if (1 : Nat) = 1 then 0 else _; rw [if_pos rfl]
    | ⟨1, _⟩ => by show q.val = if (2048 : Nat) = 1 then 0 else q.val; rw [if_neg (by decide)])

/-- THE PAYLOAD AT AN ELEMENT. -/
theorem pay_at (X0 : Vec Ideal S1024x128 .f32) (X1 : Vec Ideal S2048x128 .f32) (X2 : Vec Ideal S1x2048 .f32)
    (r : Fin 1024) (q : Fin 2048) :
    k0_pay1 (F := Ideal) X0 X1 X2 (ix2 r q) = (∑ k : Fin 128, X0 (ix2 r k) * X1 (ix2 q k)) + X2 (ix2 (0 : Fin 1) q) := by
  unfold k0_pay1
  refine (addf_apply _ _ (ix2 r q)).trans ?_
  refine congrArg₂ (· + ·) ?_ (bias_at X2 r q)
  exact matmul_at _ _ r q

end Cert.KernelIdeal.Payload

end
-- ==== Proof.Affine.lean ====
/-
  The function both programs compute, over the extended reals: the affine map of a fully connected layer,
      y[r, j] = Σ_k x[r, k] · W[j, k] + b[j]     (r < 1024, j < 100000, k < 128),
  every row of the activations x against every row of the weight matrix W, plus that row's bias.
  No law of the extended reals beyond this one formula is needed: both programs form each entry as this very sum
  and this very addition, so nothing is rearranged and finiteness of the inputs is never used.
-/
import Idealize.ShloMosaic.PureOps.Ideal
import Idealize.ShloMosaic.Lib.ValueIdx

noncomputable section

namespace Cert.Affine

open Idealize.ShloMosaic Idealize.ShloMosaic.ValueIdx

/-- Entry (r, j) of the layer's output. -/
def entry (x : FVec Ideal ⟨2, ![1024, 128]⟩ .f32) (W : FVec Ideal ⟨2, ![100000, 128]⟩ .f32) (b : FVec Ideal ⟨1, ![100000]⟩ .f32)
    (r : Fin 1024) (j : Fin 100000) : Ideal .f32 :=
  (∑ k : Fin 128, x (ix2 r k) * W (ix2 j k)) + b (ix1 j)

/-- The whole output array. -/
def layer (x : FVec Ideal ⟨2, ![1024, 128]⟩ .f32) (W : FVec Ideal ⟨2, ![100000, 128]⟩ .f32) (b : FVec Ideal ⟨1, ![100000]⟩ .f32) :
    FVec Ideal ⟨2, ![1024, 100000]⟩ .f32 :=
  fun i => entry x W b ⟨(i 0).val, (i 0).isLt⟩ ⟨(i 1).val, (i 1).isLt⟩

end Cert.Affine

end
-- ==== Proof.KernelValue.lean ====
/-
  The value of the idealized kernel's run.  The grid has 49 points; point t stages the activations x whole, rows
  2048·t … of the weight matrix W, entries 2048·t … of the bias row, and writes columns 2048·t … of the output back.
  100000 = 48 · 2048 + 1696, so the last point's tiles overhang their arrays: only 1696 weight rows and bias entries
  are fetched there (the rest of the two staging buffers holds words nothing names) and only 1696 output columns are
  written back.  Column q of the output tile is the product of x with row q of the weight tile plus entry q of the
  bias tile, so the columns that are written back depend only on rows and entries that were fetched: whatever the
  unnamed words are, every written column j of the output ends at  Σ_k x[r, k] · W[j, k] + b[j].
  The blocks' written parts cover the output array (column j lies in the block of point j / 2048), so the array
  ends at the layer's value everywhere.
-/
import proofs.«113134_g73632919322862_cont_9to1c4b_96_2_alg».proof.Proof.BodyIdeal
import proofs.«113134_g73632919322862_cont_9to1c4b_96_2_alg».proof.Proof.PayloadIdeal
import proofs.«113134_g73632919322862_cont_9to1c4b_96_2_alg».proof.Proof.Affine
import Idealize.ShloMosaic.Lib.Pipeline.Value
import Idealize.ShloMosaic.Lib.StableHlo.Run

set_option maxRecDepth 16384

noncomputable section

namespace Cert.KernelIdeal.ValueRun

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The schedule's arithmetic, decided once over the 49 points -/

/-- Block indices: x's is always (0, 0); W's is (t, 0); the bias row's and the output's are (0, t).  Moved extents:
    W's rows, the bias's entries and the output's columns are cut alike — to 1696 at the last point, 2048 before —
    and nothing else is cut. -/
theorem grid_facts : ∀ t : Fin cfg0.N,
    win0_0.index t (0 : Fin 2) = 0 ∧ win0_0.index t (1 : Fin 2) = 0
  ∧ win0_1.index t (0 : Fin 2) = t.val ∧ win0_1.index t (1 : Fin 2) = 0
  ∧ win0_2.index t (0 : Fin 2) = 0 ∧ win0_2.index t (1 : Fin 2) = t.val
  ∧ win0_3.index t (0 : Fin 2) = 0 ∧ win0_3.index t (1 : Fin 2) = t.val
  ∧ win0_1.xsize (grid0.coords t) (0 : Fin 2) = win0_3.xsize (grid0.coords t) (1 : Fin 2)
  ∧ win0_1.xsize (grid0.coords t) (1 : Fin 2) = 128
  ∧ win0_2.xsize (grid0.coords t) (0 : Fin 2) = 1
  ∧ win0_2.xsize (grid0.coords t) (1 : Fin 2) = win0_3.xsize (grid0.coords t) (1 : Fin 2)
  ∧ win0_3.xsize (grid0.coords t) (0 : Fin 2) = 1024
  ∧ win0_3.xsize (grid0.coords t) (1 : Fin 2) = (if t.val = 48 then 1696 else 2048) :=
  (by decide +kernel : ∀ t : Fin grid0.N, _)

/-- A written-back column of point t is a column of the array: 2048·t + q < 100000 for q below the moved extent. -/
theorem col_lt (t : Fin cfg0.N) (q : Nat) (hq : q < win0_3.xsize (grid0.coords t) (1 : Fin 2)) :
    q < 2048 ∧ t.val * 2048 + q < 100000 := by
  have hN : cfg0.N = 49 := N_0
  have ht : t.val < 49 := hN ▸ t.isLt
  have x31 := (grid_facts t).2.2.2.2.2.2.2.2.2.2.2.2.2
  by_cases h48 : t.val = 48
  · rw [if_pos h48] at x31; omega
  · rw [if_neg h48] at x31; omega

/-! ## The layer over the arrays as the region finds them -/

/-- The layer with the bias as the [1, 100000] row the kernel's @main reshapes it to. -/
def rowLayer (x : Vec Ideal S1024x128 .f32) (W : Vec Ideal S100000x128 .f32) (b : Vec Ideal S1x100000 .f32) :
    Vec Ideal S1024x100000 .f32 :=
  fun i => (∑ k : Fin 128, x (ix2 (⟨(i 0).val, (i 0).isLt⟩ : Fin 1024) k) * W (ix2 (⟨(i 1).val, (i 1).isLt⟩ : Fin 100000) k))
    + b (ix2 (0 : Fin 1) (⟨(i 1).val, (i 1).isLt⟩ : Fin 100000))

theorem rowLayer_at (x : Vec Ideal S1024x128 .f32) (W : Vec Ideal S100000x128 .f32) (b : Vec Ideal S1x100000 .f32)
    (i : S1024x100000.Idx) (r : Fin 1024) (j : Fin 100000) (hr : (i 0).val = r.val) (hj : (i 1).val = j.val) :
    rowLayer x W b i = (∑ k : Fin 128, x (ix2 r k) * W (ix2 j k)) + b (ix2 (0 : Fin 1) j) := by
  have e0 : (⟨(i 0).val, (i 0).isLt⟩ : Fin 1024) = r := Fin.ext hr
  have e1 : (⟨(i 1).val, (i 1).isLt⟩ : Fin 100000) = j := Fin.ext hj
  unfold rowLayer; rw [e0, e1]

/-- What the output array ends at: the layer of x, W and the reshaped bias as the region finds them. -/
def G (c : Dev nD) : Vec Ideal S1024x100000 .f32 := rowLayer (V m c main_arg0) (V m c main_arg1) (V m c main_v0)

/-! ## The proof data -/

/-- A word to fill the unnamed part of a staging buffer with (nothing reads it). -/
abbrev z : Elt Ideal .f32 := FloatOps.ofBits (F := Ideal) .f32 0#32

/-- After the body at point t: x's buffer holds x; W's and the bias's buffers hold their tiles on the fetched part;
    the output's buffer holds, on the part written back, the layer's columns of this point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => z) (iblk m c 1 t)
    | ⟨2, _⟩ => win0_2.fill (grid0.coords t) (fun _ => z) (iblk m c 2 t)
    | ⟨3, _⟩ => win0_3.fill (grid0.coords t) (fun _ => z) (((cfg0.win 3).blk t).view.read (Elt Ideal) (G m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => z) (iblk m c 1 t) := by dsimp only [dats]
theorem after0_2 (c : Dev nD) (t : Fin cfg0.N) :
    (dats m 0 c).after 2 t = win0_2.fill (grid0.coords t) (fun _ => z) (iblk m c 2 t) := by dsimp only [dats]
theorem after0_3 (c : Dev nD) (t : Fin cfg0.N) :
    (dats m 0 c).after 3 t = win0_3.fill (grid0.coords t) (fun _ => z) (((cfg0.win 3).blk t).view.read (Elt Ideal) (G m c)) := by
  dsimp only [dats]

/-- What the write-back of point t writes: the layer's block there. -/
theorem flushed3_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  exact win0_3.cut_fill _ _ _

/-! ## What the body finds -/

/-- x's buffer holds x at every point, fetched there or not. -/
theorem before0_0 (c : Dev nD) (t : Fin cfg0.N) (d) : (dats m 0 c).before 0 t d = iblk m c 0 t :=
  before0_0_of m (dats m 0 c) (A_eq m c 0) (after0_0 m c) t d

/-- W's buffer, fetched at every point: the tile on the fetched rows, anything past them. -/
theorem before0_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]

/-- The bias row's buffer likewise. -/
theorem before0_2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk; rw [A_eq]

/-- The output's buffer comes back from the previous point's write-back holding anything. -/
theorem before0_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The staged tiles at a coordinate -/

/-- x's tile is x. -/
theorem xtile_at (c : Dev nD) (t : Fin cfg0.N) (r : Fin 1024) (k : Fin 128) :
    iblk m c 0 t (ix2 r k) = V m c main_arg0 (ix2 r k) := by
  obtain ⟨e00, e01, -⟩ := grid_facts t
  show V m c main_arg0 (((cfg0.win 0).blk t).view.emb (ix2 r k)) = _
  refine congrArg _ (funext fun a => Fin.ext ?_)
  match a with
  | ⟨0, _⟩ => show win0_0.index t (0 : Fin 2) * 1024 + 1 * r.val = r.val; omega
  | ⟨1, _⟩ => show win0_0.index t (1 : Fin 2) * 128 + 1 * k.val = k.val; omega

/-- Row q of W's staged tile, for a fetched row, is row 2048·t + q of W — whatever fills the rest of the buffer. -/
theorem wtile_at (c : Dev nD) (t : Fin cfg0.N) (d : S2048x128.Idx → Elt Ideal .f32) (q : Fin 2048) (k : Fin 128) (j : Fin 100000)
    (hq : q.val < win0_3.xsize (grid0.coords t) (1 : Fin 2)) (hj : j.val = t.val * 2048 + q.val) :
    win0_1.fill (grid0.coords t) d (iblk m c 1 t) (ix2 q k) = V m c main_arg1 (ix2 j k) := by
  obtain ⟨-, -, e10, e11, -, -, -, -, x10, x11, -⟩ := grid_facts t
  have hm : win0_1.moved (grid0.coords t) (ix2 q k) = true := (win0_1.moved_iff _ _).mpr fun a => match a with
    | ⟨0, _⟩ => by show q.val < win0_1.xsize (grid0.coords t) (0 : Fin 2); omega
    | ⟨1, _⟩ => by show k.val < win0_1.xsize (grid0.coords t) (1 : Fin 2); have := k.isLt; omega
  unfold Window.fill
  rw [dif_pos hm]
  show V m c main_arg1 (((cfg0.win 1).blk t).view.emb _) = _
  refine congrArg _ (funext fun a => Fin.ext ?_)
  match a with
  | ⟨0, _⟩ => show win0_1.index t (0 : Fin 2) * 2048 + 1 * q.val = j.val; omega
  | ⟨1, _⟩ => show win0_1.index t (1 : Fin 2) * 128 + 1 * k.val = k.val; omega

/-- Entry q of the bias's staged tile, for a fetched entry, is entry 2048·t + q of the bias row. -/
theorem btile_at (c : Dev nD) (t : Fin cfg0.N) (d : S1x2048.Idx → Elt Ideal .f32) (q : Fin 2048) (j : Fin 100000)
    (hq : q.val < win0_3.xsize (grid0.coords t) (1 : Fin 2)) (hj : j.val = t.val * 2048 + q.val) :
    win0_2.fill (grid0.coords t) d (iblk m c 2 t) (ix2 (0 : Fin 1) q) = V m c main_v0 (ix2 (0 : Fin 1) j) := by
  obtain ⟨-, -, -, -, e20, e21, -, -, -, -, x20, x21, -⟩ := grid_facts t
  have hm : win0_2.moved (grid0.coords t) (ix2 (0 : Fin 1) q) = true := (win0_2.moved_iff _ _).mpr fun a => match a with
    | ⟨0, _⟩ => by show (0 : Nat) < win0_2.xsize (grid0.coords t) (0 : Fin 2); omega
    | ⟨1, _⟩ => by show q.val < win0_2.xsize (grid0.coords t) (1 : Fin 2); omega
  unfold Window.fill
  rw [dif_pos hm]
  show V m c main_v0 (((cfg0.win 2).blk t).view.emb _) = _
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * q.val = j.val; omega

/-- THE OUTPUT TILE'S WRITTEN PART: whatever fills the unfetched part of the two input tiles, the columns of the
    body's payload that are written back are the layer's block at this point. -/
theorem tile_eq (c : Dev nD) (t : Fin cfg0.N) (d1 : S2048x128.Idx → Elt Ideal .f32) (d2 : S1x2048.Idx → Elt Ideal .f32) :
    win0_3.cut (grid0.coords t) (k0_pay1 (F := Ideal) (iblk m c 0 t) (win0_1.fill (grid0.coords t) d1 (iblk m c 1 t))
        (win0_2.fill (grid0.coords t) d2 (iblk m c 2 t)))
      = ((cfg0.win 3).blk t).view.read (Elt Ideal) (G m c) := by
  obtain ⟨-, -, -, -, -, -, e30, e31, -, -, -, -, x30, -⟩ := grid_facts t
  funext y
  have hy0 : (y 0).val < 1024 := by
    have : (y 0).val < win0_3.xsize (grid0.coords t) (0 : Fin 2) := (y 0).isLt
    omega
  have hy1 : (y 1).val < win0_3.xsize (grid0.coords t) (1 : Fin 2) := (y 1).isLt
  obtain ⟨hq, hj⟩ := col_lt t (y 1).val hy1
  have e1 : win0_3.xinj (grid0.coords t) y = ix2 (⟨(y 0).val, hy0⟩ : Fin 1024) (⟨(y 1).val, hq⟩ : Fin 2048) :=
    funext fun a => match a with | ⟨0, _⟩ => rfl | ⟨1, _⟩ => rfl
  show k0_pay1 (F := Ideal) _ _ _ (win0_3.xinj (grid0.coords t) y) = G m c (((cfg0.win 3).blk t).view.emb y)
  rw [e1]
  refine (Payload.pay_at _ _ _ _ _).trans ?_
  refine Eq.trans ?_ (rowLayer_at _ _ _ (((cfg0.win 3).blk t).view.emb y) ⟨(y 0).val, hy0⟩ ⟨t.val * 2048 + (y 1).val, hj⟩
    (by show win0_3.index t (0 : Fin 2) * 1024 + 1 * (y 0).val = (y 0).val; omega)
    (by show win0_3.index t (1 : Fin 2) * 2048 + 1 * (y 1).val = t.val * 2048 + (y 1).val; omega)).symm
  refine congrArg₂ (· + ·) (Finset.sum_congr rfl fun k _ => ?_) (btile_at m c t d2 ⟨(y 1).val, hq⟩ ⟨t.val * 2048 + (y 1).val, hj⟩ hy1 rfl)
  exact congrArg₂ (· * ·) (xtile_at m c t ⟨(y 0).val, hy0⟩ k) (wtile_at m c t d1 ⟨(y 1).val, hq⟩ k ⟨t.val * 2048 + (y 1).val, hj⟩ hy1 rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (grid0.coords t) d ((cfg0.win 1).cut (grid0.coords t) ((dats m 0 c).after 1 t))))
    ∗ (∃ d, owns (c : Thread nD τ) (st0_2 t) fullShare ((cfg0.win 2).fill (grid0.coords t) d ((cfg0.win 2).cut (grid0.coords t) ((dats m 0 c).after 2 t))))
    ∗ (∃ d, owns (c : Thread nD τ) (st0_3 t) fullShare ((cfg0.win 3).fill (grid0.coords t) d ((cfg0.win 3).cut (grid0.coords t) ((dats m 0 c).after 3 t)))))

theorem cut_after1 (c : Dev nD) (t : Fin cfg0.N) :
    (cfg0.win 1).cut (grid0.coords t) ((dats m 0 c).after 1 t) = iblk m c 1 t := by
  rw [after0_1]; exact win0_1.cut_fill _ _ _
theorem cut_after2 (c : Dev nD) (t : Fin cfg0.N) :
    (cfg0.win 2).cut (grid0.coords t) ((dats m 0 c).after 2 t) = iblk m c 2 t := by
  rw [after0_2]; exact win0_2.cut_fill _ _ _
theorem cut_after3 (c : Dev nD) (t : Fin cfg0.N) :
    (cfg0.win 3).cut (grid0.coords t) ((dats m 0 c).after 3 t) = ((cfg0.win 3).blk t).view.read (Elt Ideal) (G m c) :=
  flushed3_eq m c t

/-- The body at any point: the inputs are handed back as found — on the fetched part their tiles, as every later
    use asks — and the output tile's written part is the layer's block (`tile_eq`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, cut_after1, cut_after2, cut_after3]
  iintro ⟨HΦ, Ho, ⟨%d0, H0⟩, ⟨%d1, H1⟩, ⟨%d2, H2⟩, ⟨%d3, H3⟩⟩
  iapply (Body.sound_kernel c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists (k0_pay1 (F := Ideal) (iblk m c 0 t) (win0_1.fill (grid0.coords t) d1 (iblk m c 1 t)) (win0_2.fill (grid0.coords t) d2 (iblk m c 2 t)))
  rw [← tile_eq m c t d1 d2, win0_3.fill_cut]
  iexact H3

/-- The library's body obligation (each clipped window stated on its moved part), at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-! ## The output array after the run -/

/-- An index of the output array is in point t's written block iff its column is among that point's written columns. -/
theorem mem_blk3 (t : Fin cfg0.N) (i : S1024x100000.Idx) :
    i ∈ ((cfg0.win 3).blk t).view.set ↔ ∀ a : Fin 2, win0_3.index t a * S1024x2048.size a ≤ (i a).val
      ∧ (i a).val < win0_3.index t a * S1024x2048.size a + win0_3.xsize (grid0.coords t) a := by
  show i ∈ ((View.whole main_v1).slice (win0_3.rect t)).set ↔ _
  rw [View.set_slice_whole, Rect.mem_set_unit]
  exact Iff.rfl

/-- Every index of the output is written back by some point: column j by point j / 2048. -/
theorem cover3 (i : S1024x100000.Idx) :
    ∃ t : Fin cfg0.N, (cfg0.win 3).flush t = true ∧ i ∈ ((cfg0.win 3).blk t).view.set := by
  have hN : cfg0.N = 49 := N_0
  have hi0 : (i 0).val < 1024 := (i 0).isLt
  have hi1 : (i 1).val < 100000 := (i 1).isLt
  have htlt : (i 1).val / 2048 < cfg0.N := by rw [hN]; omega
  refine ⟨⟨(i 1).val / 2048, htlt⟩, flush0_3 _, ?_⟩
  rw [mem_blk3]
  obtain ⟨-, -, -, -, -, -, e30, e31, -, -, -, -, x30, x31⟩ := grid_facts ⟨(i 1).val / 2048, htlt⟩
  have e31' : win0_3.index ⟨(i 1).val / 2048, htlt⟩ (1 : Fin 2) = (i 1).val / 2048 := e31
  have x31' : win0_3.xsize (grid0.coords ⟨(i 1).val / 2048, htlt⟩) (1 : Fin 2) = (if (i 1).val / 2048 = 48 then 1696 else 2048) := x31
  intro a
  match a with
  | ⟨0, _⟩ =>
    show win0_3.index ⟨(i 1).val / 2048, htlt⟩ (0 : Fin 2) * 1024 ≤ (i 0).val
      ∧ (i 0).val < win0_3.index ⟨(i 1).val / 2048, htlt⟩ (0 : Fin 2) * 1024 + win0_3.xsize (grid0.coords ⟨(i 1).val / 2048, htlt⟩) (0 : Fin 2)
    omega
  | ⟨1, _⟩ =>
    show win0_3.index ⟨(i 1).val / 2048, htlt⟩ (1 : Fin 2) * 2048 ≤ (i 1).val
      ∧ (i 1).val < win0_3.index ⟨(i 1).val / 2048, htlt⟩ (1 : Fin 2) * 2048 + win0_3.xsize (grid0.coords ⟨(i 1).val / 2048, htlt⟩) (1 : Fin 2)
    rw [e31', x31']
    by_cases h48 : (i 1).val / 2048 = 48
    · rw [if_pos h48]; omega
    · rw [if_neg h48]; omega

/-- THE OUTPUT ARRAY after the run is the layer. -/
theorem final3 (c : Dev nD) : (dats m 0 c).arrAt 3 cfg0.N = G m c :=
  (dats m 0 c).arrAt_eq_of_cover 3 (G m c) (fun t _ => flushed3_eq m c t) cover3

/-! ## The layer over the launch contents -/

/-- The reshaped bias row at (0, j) is b at j. -/
theorem bias_row (c : Dev nD) (j : Fin 100000) :
    V m c main_v0 (ix2 (0 : Fin 1) j) = m ((c : Thread nD τ).loc main_arg2) (ix1 j) := by
  have e : (V m c main_v0 : S1x100000.Idx → Elt Ideal .f32)
      = shapeCast S1x100000 (m ((c : Thread nD τ).loc main_arg2)) Facts₀.shapeCasts_S100000_S1x100000 := by
    dsimp only [Gen.V, Gen.hostOps0]; after_results; rfl
  rw [e]
  exact shapeCast_apply _ _ (ix2 (0 : Fin 1) j) (ix1 j) (by
    rw [Shape.rowMajor_val_one, Shape.rowMajor_val_two]
    show j.val = 0 * 100000 + j.val
    omega)

/-- So what the output ends at is the layer of the arrays as launched. -/
theorem G_eq (c : Dev nD) : G m c = Cert.Affine.layer (m ((c : Thread nD τ).loc main_arg0)) (m ((c : Thread nD τ).loc main_arg1))
    (m ((c : Thread nD τ).loc main_arg2)) := by
  funext i
  unfold G rowLayer Cert.Affine.layer Cert.Affine.entry
  rw [V_main_arg0, V_main_arg1, bias_row]

/-- THE RUN, READ: the result array ends at the layer of the launch contents, the arguments unchanged. -/
theorem run : θ_run defs (onTc (τ := τ) (main (F := Ideal))) ⟨m, fun _ => 0, ρ⟩ fun r => ∀ c : Dev nD,
      r.2.mem ((c : Thread nD τ).loc main_v1) = Cert.Affine.layer (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).1 3).trans ((final3 m c).trans (G_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.ValueRun

end
-- ==== Proof.RefValue.lean ====
/-
  The reference computes the layer: its transpose of W, its product of x with the transposed W, its two broadcasts of
  b and its addition, read one operation at a time at an output index (r, j), give Σ_k x[r, k] · W[j, k] + b[j].
-/
import proofs.«113134_g73632919322862_cont_9to1c4b_96_2_alg».proof.Proof.Gen.ReferenceIdeal.Read
import proofs.«113134_g73632919322862_cont_9to1c4b_96_2_alg».proof.Proof.Affine

noncomputable section

namespace Cert.ReferenceIdeal.RefValue

open Cert.ReferenceIdeal Cert.ReferenceIdeal.Gen Cert.ReferenceIdeal.Read
open Idealize.ShloMosaic Idealize.ShloMosaic.ValueIdx

/-- The product's left operand is read at (r, k), -/
theorem lidx_eq (i : S1024x100000.Idx) (k : Fin 128) :
    lidx_main_v1 i k = ix2 (⟨(i 0).val, (i 0).isLt⟩ : Fin 1024) k :=
  funext fun a => match a with | ⟨0, _⟩ => rfl | ⟨1, _⟩ => rfl

/-- the transposed weights at (k, j), that is W at (j, k), -/
theorem ridx_eq (i : S1024x100000.Idx) (k : Fin 128) :
    idx_main_v0 (ridx_main_v1 i k) = ix2 (⟨(i 1).val, (i 1).isLt⟩ : Fin 100000) k :=
  funext fun a => match a with | ⟨0, _⟩ => rfl | ⟨1, _⟩ => rfl

/-- and the twice-broadcast bias at j. -/
theorem bidx_eq (i : S1024x100000.Idx) :
    idx_main_v2 (idx_main_v3 i) = ix1 (⟨(i 1).val, (i 1).isLt⟩ : Fin 100000) :=
  funext fun a => match a with | ⟨0, _⟩ => rfl

/-- The reference's result is the layer. -/
theorem ref_eq (x0 : (⟨S1024x128, .f32⟩ : BufTy).Contents (Elt Ideal)) (x1 : (⟨S100000x128, .f32⟩ : BufTy).Contents (Elt Ideal))
    (x2 : (⟨S100000, .f32⟩ : BufTy).Contents (Elt Ideal)) :
    val_main_v4 (F := Ideal) x0 x1 x2 = Cert.Affine.layer x0 x1 x2 := by
  funext i
  rw [val_main_v4_apply, val_main_v1_apply, val_main_v3_apply, val_main_v2_apply]
  simp only [val_main_v0_apply, lidx_eq, ridx_eq, bidx_eq]
  rfl

end Cert.ReferenceIdeal.RefValue

end
-- ==== Proof.lean ====
/-
  The certificate of a fully connected layer  y = x · Wᵀ + b  (x : 1024 × 128, W : 100000 × 128, b : 100000) computed
  by a kernel that streams 2048-column tiles of the output over a grid of 49 points, against the plain product and
  sum of the reference.  Over the extended reals both are, entry by entry, the one expression
      y[r, j] = Σ_k x[r, k] · W[j, k] + b[j]
  (the kernel's changes of float format are the identity there and its matrix product into a zero accumulator is the
  plain sum), so no law is needed to join them and the finiteness of the inputs is never used.  The one subtlety is
  the last grid point, whose tiles overhang the arrays: the words past the arrays' ends are not named by anything,
  and the output's columns that are written back do not depend on them (Proof/KernelValue.lean).

  Frames: the word-level kernel's by relational proof data that say nothing of what the body computes
  (Proof/FrameBits.lean); the idealized kernel's from its value run; the reference's from its run.
  The idealized kernel is the kernel's own text read over the extended reals, no operation rewritten, so the claim
  relating the two is trivial.
-/
import proofs.«113134_g73632919322862_cont_9to1c4b_96_2_alg».proof.Defs
import proofs.«113134_g73632919322862_cont_9to1c4b_96_2_alg».proof.Proof.Gen.Kernel
import proofs.«113134_g73632919322862_cont_9to1c4b_96_2_alg».proof.Proof.Gen.KernelIdeal
import proofs.«113134_g73632919322862_cont_9to1c4b_96_2_alg».proof.Proof.Gen.ReferenceIdeal
import proofs.«113134_g73632919322862_cont_9to1c4b_96_2_alg».proof.Proof.Gen.ReferenceIdeal.Run
import proofs.«113134_g73632919322862_cont_9to1c4b_96_2_alg».proof.Proof.Gen.ReferenceIdeal.Read
import proofs.«113134_g73632919322862_cont_9to1c4b_96_2_alg».proof.Proof.Gen.Pre_finite_inputs
import proofs.«113134_g73632919322862_cont_9to1c4b_96_2_alg».proof.Proof.FrameBits
import proofs.«113134_g73632919322862_cont_9to1c4b_96_2_alg».proof.Proof.KernelValue
import proofs.«113134_g73632919322862_cont_9to1c4b_96_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves x, W and b as launched. -/
theorem frame_kernel : Cert.frame_Kernel := fun m ρ _ => Cert.Kernel.FrameRun.frame m ρ

/-- So does the idealized kernel: its value run, the result dropped. -/
theorem frame_kernelIdeal : Cert.frame_KernelIdeal := fun m ρ _ =>
  (θ_run Cert.KernelIdeal.defs _ _).mono (fun _ h c => (h c).2) (Cert.KernelIdeal.ValueRun.run m ρ)

/-- And the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to its reading over the extended reals. -/
theorem preserves : Cert.preserves_Kernel_KernelIdeal := trivial

/-- Both idealized programs end with the result at the layer of the (agreeing) arguments. -/
theorem algebraic : Cert.algebraic_KernelIdeal_ReferenceIdeal := by
  intro m ρ m' ρ' _ hagree
  refine ⟨fun c => Cert.Affine.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
